-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v13) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1024x256x16x16 : Shape := ⟨4, ![1024, 256, 16, 16]⟩
abbrev S_ : Shape := ⟨0, ![]⟩

class Facts : Prop where
  bcast_S_S1024x256x16x16 : S_.BroadcastsInDim S1024x256x16x16 (![] : Fin 0 → Fin S1024x256x16x16.rank)
  reducesTo_S1024x256x16x16_S_d0_1_2_3 : S1024x256x16x16.ReducesTo [0, 1, 2, 3] S_
  h_S_ : 0 < S_.numel

variable [Facts]

def fn {F : FTy → Type} [FloatOps F] (main_arg0 : FVec F S1024x256x16x16 .f32) (main_arg1 : FVec F S1024x256x16x16 .f32) : IVec S_ 1 :=
  let main_v0 : FVec F S1024x256x16x16 .f32 := Host.absf main_arg0
  let main_cst : FVec F S_ .f32 := constant S_ .f32 0x7F800000#32
  let main_v1 : FVec F S1024x256x16x16 .f32 := broadcastInDim S1024x256x16x16 ![] bcast_S_S1024x256x16x16 main_cst
  let main_v2 : IVec S1024x256x16x16 1 := cmpf .olt main_v0 main_v1
  let main_c : IVec S_ 1 := constantI S_ 1 1#1
  let main_v3 : IVec S_ 1 := (fun x v => Host.reduce IntOp.andi x v reducesTo_S1024x256x16x16_S_d0_1_2_3 h_S_) main_v2 main_c
  let main_v4 : FVec F S1024x256x16x16 .f32 := Host.absf main_arg1
  let main_cst_0 : FVec F S_ .f32 := constant S_ .f32 0x7F800000#32
  let main_v5 : FVec F S1024x256x16x16 .f32 := broadcastInDim S1024x256x16x16 ![] bcast_S_S1024x256x16x16 main_cst_0
  let main_v6 : IVec S1024x256x16x16 1 := cmpf .olt main_v4 main_v5
  let main_c_1 : IVec S_ 1 := constantI S_ 1 1#1
  let main_v7 : IVec S_ 1 := (fun x v => Host.reduce IntOp.andi x v reducesTo_S1024x256x16x16_S_d0_1_2_3 h_S_) main_v6 main_c_1
  let main_v8 : IVec S_ 1 := andi main_v3 main_v7
  main_v8
-- ==== Kernel.lean ====
abbrev S1024x256x16x16 : Shape := ⟨4, ![1024, 256, 16, 16]⟩
abbrev S1024x65536 : Shape := ⟨2, ![1024, 65536]⟩
abbrev S1024x1 : Shape := ⟨2, ![1024, 1]⟩
abbrev S512x2048 : Shape := ⟨2, ![512, 2048]⟩
abbrev S512x1 : Shape := ⟨2, ![512, 1]⟩
abbrev S512x128 : Shape := ⟨2, ![512, 128]⟩
abbrev S512 : Shape := ⟨1, ![512]⟩
abbrev S_ : Shape := ⟨0, ![]⟩

abbrev nBuf : Space → Nat
  | .hbm => 9
  | .vmem => 7
  | .smem => 0
  | _ => 0

abbrev bufTy : (tb : Table) → Fin (tcTables nBuf tb) → BufTy
  | .hbm, ⟨0, _⟩ => ⟨S1024x256x16x16, .f32⟩
  | .hbm, ⟨1, _⟩ => ⟨S1024x256x16x16, .f32⟩
  | .hbm, ⟨2, _⟩ => ⟨S1024x65536, .f32⟩
  | .hbm, ⟨3, _⟩ => ⟨S1024x65536, .f32⟩
  | .hbm, ⟨4, _⟩ => ⟨S1024x1, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .local _ .vmem, ⟨0, _⟩ => ⟨S512x2048, .f32⟩
  | .local _ .vmem, ⟨1, _⟩ => ⟨S512x2048, .f32⟩
  | .local _ .vmem, ⟨2, _⟩ => ⟨S512x2048, .f32⟩
  | .local _ .vmem, ⟨3, _⟩ => ⟨S512x2048, .f32⟩
  | .local _ .vmem, ⟨4, _⟩ => ⟨S512x1, .f32⟩
  | .local _ .vmem, ⟨5, _⟩ => ⟨S512x1, .f32⟩
  | .local _ .vmem, ⟨6, _⟩ => ⟨S512x128, .f32⟩
  | _, _ => ⟨S1024x256x16x16, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 32], ![false, false]⟩

def k0_mult1 : BitVec 32 :=
  let c0_i32_1 : BitVec 32 := 0#32
  let c128_i32 : BitVec 32 := 128#32
  let v3 : BitVec 32 := Scalar.muli c0_i32_1 c128_i32
  v3
def k0_off1 (c0_i32_1 : BitVec 32) : Fin 2 → Nat :=
  let c0 : Index := 0#32
  let c128_i32 : BitVec 32 := 128#32
  let v3 : BitVec 32 := Scalar.muli c0_i32_1 c128_i32
  let v4 : BitVec 32 := v3
  let v5 : Index := Scalar.indexCast v4
  ![0, v5.toNat]
def k0_mult2 : BitVec 32 :=
  let c1_i32 : BitVec 32 := 1#32
  let c128_i32_7 : BitVec 32 := 128#32
  let v18 : BitVec 32 := Scalar.muli c1_i32 c128_i32_7
  v18
def k0_mult3 : BitVec 32 :=
  let c2_i32 : BitVec 32 := 2#32
  let c128_i32_14 : BitVec 32 := 128#32
  let v33 : BitVec 32 := Scalar.muli c2_i32 c128_i32_14
  v33
def k0_mult4 : BitVec 32 :=
  let c3_i32 : BitVec 32 := 3#32
  let c128_i32_21 : BitVec 32 := 128#32
  let v48 : BitVec 32 := Scalar.muli c3_i32 c128_i32_21
  v48
def k0_mult5 : BitVec 32 :=
  let c4_i32 : BitVec 32 := 4#32
  let c128_i32_28 : BitVec 32 := 128#32
  let v63 : BitVec 32 := Scalar.muli c4_i32 c128_i32_28
  v63
def k0_mult6 : BitVec 32 :=
  let c5_i32 : BitVec 32 := 5#32
  let c128_i32_35 : BitVec 32 := 128#32
  let v78 : BitVec 32 := Scalar.muli c5_i32 c128_i32_35
  v78
def k0_mult7 : BitVec 32 :=
  let c6_i32 : BitVec 32 := 6#32
  let c128_i32_42 : BitVec 32 := 128#32
  let v93 : BitVec 32 := Scalar.muli c6_i32 c128_i32_42
  v93
def k0_mult8 : BitVec 32 :=
  let c7_i32 : BitVec 32 := 7#32
  let c128_i32_49 : BitVec 32 := 128#32
  let v108 : BitVec 32 := Scalar.muli c7_i32 c128_i32_49
  v108
def k0_mult9 : BitVec 32 :=
  let c8_i32 : BitVec 32 := 8#32
  let c128_i32_56 : BitVec 32 := 128#32
  let v123 : BitVec 32 := Scalar.muli c8_i32 c128_i32_56
  v123
def k0_mult10 : BitVec 32 :=
  let c9_i32 : BitVec 32 := 9#32
  let c128_i32_63 : BitVec 32 := 128#32
  let v138 : BitVec 32 := Scalar.muli c9_i32 c128_i32_63
  v138
def k0_mult11 : BitVec 32 :=
  let c10_i32 : BitVec 32 := 10#32
  let c128_i32_70 : BitVec 32 := 128#32
  let v153 : BitVec 32 := Scalar.muli c10_i32 c128_i32_70
  v153
def k0_mult12 : BitVec 32 :=
  let c11_i32 : BitVec 32 := 11#32
  let c128_i32_77 : BitVec 32 := 128#32
  let v168 : BitVec 32 := Scalar.muli c11_i32 c128_i32_77
  v168
def k0_mult13 : BitVec 32 :=
  let c12_i32 : BitVec 32 := 12#32
  let c128_i32_84 : BitVec 32 := 128#32
  let v183 : BitVec 32 := Scalar.muli c12_i32 c128_i32_84
  v183
def k0_mult14 : BitVec 32 :=
  let c13_i32 : BitVec 32 := 13#32
  let c128_i32_91 : BitVec 32 := 128#32
  let v198 : BitVec 32 := Scalar.muli c13_i32 c128_i32_91
  v198
def k0_mult15 : BitVec 32 :=
  let c14_i32 : BitVec 32 := 14#32
  let c128_i32_98 : BitVec 32 := 128#32
  let v213 : BitVec 32 := Scalar.muli c14_i32 c128_i32_98
  v213
def k0_mult16 : BitVec 32 :=
  let c15_i32 : BitVec 32 := 15#32
  let c128_i32_105 : BitVec 32 := 128#32
  let v228 : BitVec 32 := Scalar.muli c15_i32 c128_i32_105
  v228
def k0_cond2 (i : grid0.Coords) : BitVec 1 :=
  let arg1 : BitVec 32 := BitVec.ofNat 32 (i 1).val
  let c31_i32 : BitVec 32 := 31#32
  let v243 : BitVec 1 := Scalar.cmpi .eq arg1 c31_i32
  let v244 : BitVec 32 := Scalar.extui v243
  let c0_i32_112 : BitVec 32 := 0#32
  let v245 : BitVec 1 := Scalar.cmpi .ne v244 c0_i32_112
  v245

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S512x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

class Facts₀ : Prop where
  shapeCasts_S1024x256x16x16_S1024x65536 : S1024x256x16x16.ShapeCasts S1024x65536
  inb_S512x128_S512x128_0_0 : ∀ a, (![0, 0] : Fin 2 → Nat) a + S512x128.size a ≤ S512x128.size a
  h_S512x128 : 0 < S512x128.numel
  shapeCasts_S512x128_S512x128 : S512x128.ShapeCasts S512x128
  reduces_S512x128_S512 : S512x128.Reduces [1] S512
  shapeCasts_S512_S512x1 : S512.ShapeCasts S512x1
  inb_S512x1_S512x1_0_0 : ∀ a, (![0, 0] : Fin 2 → Nat) a + S512x1.size a ≤ S512x1.size a
  h_S512x1 : 0 < S512x1.numel
  reducesTo_S1024x1_S_d0_1 : S1024x1.ReducesTo [0, 1] S_
  h_S_ : 0 < S_.numel
  hrank0 : 0 < grid0.rank
  k0_mult1_dvd : 128 ∣ k0_mult1.toNat
  k0_off1_inb : ∀ (r : Fin 16), ∀ a, (k0_off1 (BitVec.ofNat 32 r.val)) a + S512x128.size a ≤ S512x2048.size a
  k0_mult2_dvd : 128 ∣ k0_mult2.toNat
  k0_mult3_dvd : 128 ∣ k0_mult3.toNat
  k0_mult4_dvd : 128 ∣ k0_mult4.toNat
  k0_mult5_dvd : 128 ∣ k0_mult5.toNat
  k0_mult6_dvd : 128 ∣ k0_mult6.toNat
  k0_mult7_dvd : 128 ∣ k0_mult7.toNat
  k0_mult8_dvd : 128 ∣ k0_mult8.toNat
  k0_mult9_dvd : 128 ∣ k0_mult9.toNat
  k0_mult10_dvd : 128 ∣ k0_mult10.toNat
  k0_mult11_dvd : 128 ∣ k0_mult11.toNat
  k0_mult12_dvd : 128 ∣ k0_mult12.toNat
  k0_mult13_dvd : 128 ∣ k0_mult13.toNat
  k0_mult14_dvd : 128 ∣ k0_mult14.toNat
  k0_mult15_dvd : 128 ∣ k0_mult15.toNat
  k0_mult16_dvd : 128 ∣ k0_mult16.toNat
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x2048.size a ≤ S1024x65536.size a
  hwx0_0 : ∀ i : grid0.Coords, EltTy.bits .f32 = 32 ∨ (Rect.block (s := S1024x65536) S512x2048.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x2048.size a ≤ S1024x65536.size a
  hwx0_1 : ∀ i : grid0.Coords, EltTy.bits .f32 = 32 ∨ (Rect.block (s := S1024x65536) S512x2048.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x1.size a ≤ S1024x1.size a
  hwx0_2 : ∀ i : grid0.Coords, EltTy.bits .f32 = 32 ∨ (Rect.block (s := S1024x1) S512x1.size (cc0_transform_2 i) (hinb0_2 i)).WholeWords (EltTy.packing .f32)

variable [Facts₀]

abbrev win0_0 : Pipeline.Window sig grid0 :=
  Pipeline.Window.ofSpec (Memref.whole main_v0) S512x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S512x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S512x1.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

class Facts : Prop extends Facts₀ where

variable [Facts]
-- ==== ReferenceIdeal.lean ====
abbrev S1024x256x16x16 : Shape := ⟨4, ![1024, 256, 16, 16]⟩
abbrev S1024x65536 : Shape := ⟨2, ![1024, 65536]⟩
abbrev S_ : Shape := ⟨0, ![]⟩
abbrev S1024 : Shape := ⟨1, ![1024]⟩

abbrev nBuf : Space → Nat
  | .hbm => 25
  | .vmem => 0
  | .smem => 0
  | _ => 0

abbrev bufTy : (tb : Table) → Fin (tcTables nBuf tb) → BufTy
  | .hbm, ⟨0, _⟩ => ⟨S1024x256x16x16, .f32⟩
  | .hbm, ⟨1, _⟩ => ⟨S1024x256x16x16, .f32⟩
  | .hbm, ⟨2, _⟩ => ⟨S1024x65536, .f32⟩
  | .hbm, ⟨3, _⟩ => ⟨S1024x65536, .f32⟩
  | .hbm, ⟨4, _⟩ => ⟨S1024x65536, .f32⟩
  | .hbm, ⟨5, _⟩ => ⟨S1024x65536, .f32⟩
  | .hbm, ⟨6, _⟩ => ⟨S_, .f32⟩
  | .hbm, ⟨7, _⟩ => ⟨S1024, .f32⟩
  | .hbm, ⟨8, _⟩ => ⟨S_, .f32⟩
  | .hbm, ⟨9, _⟩ => ⟨S1024, .f32⟩
  | .hbm, ⟨10, _⟩ => ⟨S1024, .f32⟩
  | .hbm, ⟨11, _⟩ => ⟨S_, .f32⟩
  | .hbm, ⟨12, _⟩ => ⟨S1024, .f32⟩
  | .hbm, ⟨13, _⟩ => ⟨S1024, .i1⟩
  | .hbm, ⟨14, _⟩ => ⟨S_, .f32⟩
  | .hbm, ⟨15, _⟩ => ⟨S1024, .f32⟩
  | .hbm, ⟨16, _⟩ => ⟨S1024, .f32⟩
  | .hbm, ⟨17, _⟩ => ⟨S_, .f32⟩
  | .hbm, ⟨18, _⟩ => ⟨S_, .f32⟩
  | .hbm, ⟨19, _⟩ => ⟨S1024, .f32⟩
  | .hbm, ⟨20, _⟩ => ⟨S1024, .f32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S_, .f32⟩
  | _, _ => ⟨S1024x256x16x16, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_cst : Ref sig .tc := ⟨.hbm, 6, rfl⟩
abbrev main_v4 : Ref sig .tc := ⟨.hbm, 7, rfl⟩
abbrev main_cst_0 : Ref sig .tc := ⟨.hbm, 8, rfl⟩
abbrev main_v5 : Ref sig .tc := ⟨.hbm, 9, rfl⟩
abbrev main_v6 : Ref sig .tc := ⟨.hbm, 10, rfl⟩
abbrev main_cst_1 : Ref sig .tc := ⟨.hbm, 11, rfl⟩
abbrev main_v7 : Ref sig .tc := ⟨.hbm, 12, rfl⟩
abbrev main_v8 : Ref sig .tc := ⟨.hbm, 13, rfl⟩
abbrev main_cst_2 : Ref sig .tc := ⟨.hbm, 14, rfl⟩
abbrev main_v9 : Ref sig .tc := ⟨.hbm, 15, rfl⟩
abbrev main_v10 : Ref sig .tc := ⟨.hbm, 16, rfl⟩
abbrev main_cst_3 : Ref sig .tc := ⟨.hbm, 17, rfl⟩
abbrev main_call0_v0 : Ref sig .tc := ⟨.hbm, 18, rfl⟩
abbrev main_call0_v1 : Ref sig .tc := ⟨.hbm, 19, rfl⟩
abbrev main_v11 : Ref sig .tc := ⟨.hbm, 20, rfl⟩
abbrev main_cst_4 : Ref sig .tc := ⟨.hbm, 21, rfl⟩
abbrev main_v12 : Ref sig .tc := ⟨.hbm, 22, rfl⟩
abbrev main_cst_5 : Ref sig .tc := ⟨.hbm, 23, rfl⟩
abbrev main_v13 : Ref sig .tc := ⟨.hbm, 24, rfl⟩

abbrev nD : Nat := 1
abbrev τ : Topo := Topo.v7x

variable {F : FTy → Type} [FloatOps F]

class Facts₀ : Prop where
  shapeCasts_S1024x256x16x16_S1024x65536 : S1024x256x16x16.ShapeCasts S1024x65536
  reducesTo_S1024x65536_S1024_d1 : S1024x65536.ReducesTo [1] S1024
  h_S_ : 0 < S_.numel
  bcast_S_S1024 : S_.BroadcastsInDim S1024 (![] : Fin 0 → Fin S1024.rank)
  reducesTo_S1024_S_d0 : S1024.ReducesTo [0] S_

variable [Facts₀]

class Facts : Prop extends Facts₀ where

variable [Facts]
-- ==== Proof.RefFrame.lean ====
import proofs.«159453_j71966472012553_2_alg».proof.Defs
import proofs.«159453_j71966472012553_2_alg».proof.Proof.Gen.ReferenceIdeal.Run
import proofs.«159453_j71966472012553_2_alg».proof.Proof.Gen.ReferenceIdeal.Read
import proofs.«159453_j71966472012553_2_alg».proof.Proof.Gen.Pre_finite_inputs

noncomputable section

open Idealize.ShloMosaic Idealize.ShloMosaic.TcCoe Idealize.SL.Sem

namespace Cert.Proof.RefFrame

/-- The reference is a straight line of host operations: it runs to the end and leaves its two argument
    arrays as it found them. -/
theorem frame_ri : Cert.frame_ReferenceIdeal := fun m ρ _ =>
  (θ_run Cert.ReferenceIdeal.defs _ _).mono (fun _ h c => (h c).2) (Cert.ReferenceIdeal.Value.run (F := Ideal) m ρ)

end Cert.Proof.RefFrame

end
-- ==== Proof.LibSumBlocks.lean ====
/-
  A sum of `J · n` consecutive terms cut into `n` consecutive blocks of `J` terms each: adding block by block
  gives the same total as adding all terms at once. Only commutativity and associativity of `+` are used, so
  the statement holds in every commutative additive monoid — in particular on the extended reals, where a sum
  may contain infinities and no cancellation law is available.
-/
import Mathlib.Algebra.BigOperators.Fin
import Mathlib.Algebra.BigOperators.Intervals

namespace Cert.LibSumBlocks

/-- Block `s` holds the terms `J·s, …, J·s + J - 1`; the first `n` blocks together are the first `J·n` terms. -/
theorem sum_blocks_range {β : Type*} [AddCommMonoid β] (g : ℕ → β) (J : ℕ) :
    ∀ n : ℕ, ∑ s ∈ Finset.range n, ∑ j ∈ Finset.range J, g (J * s + j) = ∑ k ∈ Finset.range (J * n), g k
  | 0 => by simp
  | n + 1 => by
    rw [Finset.sum_range_succ, sum_blocks_range g J n, Nat.mul_succ, Finset.sum_range_add]

/-- The same with the inner sums and the total indexed by `Fin`. -/
theorem sum_blocks_fin {β : Type*} [AddCommMonoid β] (g : ℕ → β) (J n : ℕ) :
    ∑ s ∈ Finset.range n, ∑ j : Fin J, g (J * s + j.val) = ∑ k : Fin (J * n), g k.val := by
  rw [Fin.sum_univ_eq_sum_range (fun k => g k) (J * n), ← sum_blocks_range g J n]
  refine Finset.sum_congr rfl fun s _ => ?_
  exact Fin.sum_univ_eq_sum_range (fun j => g (J * s + j)) J

end Cert.LibSumBlocks
-- ==== Proof.SumOrder.lean ====
/-
  The order in which a row's 65536 squared differences are added. The kernel visits a row in 32 steps of 2048
  columns, each step in 16 chunks of 128 columns, adds chunk after chunk into 128 lane totals, and adds the
  lane totals at the end: column `2048·l + 128·k + q` is visited at step `l`, chunk `k`, lane `q`. Adding
  over lanes, steps and chunks in that nesting gives the plain sum over the columns. Only commutativity and
  associativity of `+` are used, so the statement holds in every commutative additive monoid.
-/
import proofs.«159453_j71966472012553_2_alg».proof.Proof.LibSumBlocks

namespace Cert.SumOrder

open Finset

/-- Lanes outermost, then steps, then chunks: the same total as one pass over the columns. -/
theorem sum_lanes_steps_chunks {β : Type*} [AddCommMonoid β] (g : ℕ → β) :
    ∑ q ∈ range 128, ∑ l ∈ range 32, ∑ k ∈ range 16, g (2048 * l + (128 * k + q)) = ∑ j ∈ range 65536, g j := by
  rw [Finset.sum_comm]
  have step : ∀ l ∈ range 32, ∑ q ∈ range 128, ∑ k ∈ range 16, g (2048 * l + (128 * k + q))
      = ∑ n ∈ range 2048, g (2048 * l + n) := fun l _ => by
    rw [Finset.sum_comm]
    exact Cert.LibSumBlocks.sum_blocks_range (fun n => g (2048 * l + n)) 128 16
  rw [Finset.sum_congr rfl step]
  exact Cert.LibSumBlocks.sum_blocks_range g 2048 32

end Cert.SumOrder
-- ==== Proof.Scale.lean ====
/-
  The float words the two programs spell, as the extended reals they denote, and the one law that joins the
  kernel's scaling of a row total to the reference's: multiplying by 2⁻¹⁶ is dividing by 2¹⁶, on every
  extended real (the infinities included), because both are the product with the real number 1/65536.
-/
import Idealize.ShloMosaic.PureOps.Ideal
import Idealize.ShloMosaic.PureOps.Ideal.Laws

noncomputable section

namespace Cert.Scale

open Idealize.ShloMosaic

/-- The word `0x47800000` is 2¹⁶ = 65536, the length of a row. -/
theorem ofBits_rowLen : Ideal.ofBits .f32 0x47800000#32 = ((65536 : ℝ) : EReal) := by
  simp [Ideal.ofBits, Ideal.ieee, -EReal.coe_mul]; norm_num

/-- The word `0x37800000` is 2⁻¹⁶ = 1/65536, exactly: a power of two has no rounding. -/
theorem ofBits_invRowLen : Ideal.ofBits .f32 0x37800000#32 = ((1 / 65536 : ℝ) : EReal) := by
  simp [Ideal.ofBits, Ideal.ieee, -EReal.coe_mul]; norm_num

/-- The zero word is the number zero. -/
theorem ofBits_zero : Ideal.ofBits .f32 0x00000000#32 = 0 := Ideal.ofBits_zero_f32

/-- The hinge both programs apply to a row's mean squared difference `d`: `d − c` where `d > c`, zero elsewhere,
    with `c` the margin word `0x3C23D70A` both programs spell (never evaluated: it is the same word on both sides). -/
def hinge (d : EReal) : EReal :=
  Scalar.select (FloatOps.cmpf (F := Ideal) .ogt d (Ideal.ofBits .f32 0x3C23D70A#32))
    (d - Ideal.ofBits .f32 0x3C23D70A#32) (Ideal.ofBits .f32 0x00000000#32)

/-- A row total times 2⁻¹⁶ is the row total (added to the zero the host's sum starts from) divided by 2¹⁶. -/
theorem mul_invRowLen_eq_div (s : EReal) :
    s * Ideal.ofBits .f32 0x37800000#32
      = Ideal.div (Ideal.ofBits .f32 0x00000000#32 + s) (Ideal.ofBits .f32 0x47800000#32) := by
  rw [ofBits_rowLen, ofBits_invRowLen, ofBits_zero, zero_add, Ideal.div_coe (by norm_num : (65536 : ℝ) ≠ 0)]

end Cert.Scale

end
-- ==== Proof.RowSq.lean ====
/-
  The number both programs compute for a row, and the two ways they add it up.

  For two 1024 × 65536 arrays `A`, `B` of extended reals, row `r`'s total is the sum over the 65536 columns `n`
  of `(A r n − B r n)²`. The reference adds the columns in one pass; the kernel adds them lane by lane, step by
  step, chunk by chunk (column `2048·l + 128·k + q` at step `l`, chunk `k`, lane `q`). To speak of columns as
  natural numbers an entry outside the array reads as zero; no such entry is ever summed.
-/
import Idealize.ShloMosaic.PureOps.Ideal
import Idealize.ShloMosaic.Lib.ValueIdx
import proofs.«159453_j71966472012553_2_alg».proof.Proof.SumOrder
import proofs.«159453_j71966472012553_2_alg».proof.Proof.Scale

noncomputable section

namespace Cert.RowSq

open Idealize.ShloMosaic Idealize.ShloMosaic.ValueIdx

/-- A 1024 × 65536 array of extended reals. -/
abbrev Mat : Type := (⟨2, ![1024, 65536]⟩ : Shape).Idx → EReal

/-- Entry `(r, n)` by natural numbers; zero outside the array. -/
def cell (A : Mat) (r n : ℕ) : EReal := if h : r < 1024 ∧ n < 65536 then A (ix2 ⟨r, h.1⟩ ⟨n, h.2⟩) else 0

theorem cell_eq (A : Mat) (r n : ℕ) (hr : r < 1024) (hn : n < 65536) : cell A r n = A (ix2 ⟨r, hr⟩ ⟨n, hn⟩) :=
  dif_pos ⟨hr, hn⟩

/-- The squared difference of the two arrays at `(r, n)`. -/
def sqd (A B : Mat) (r n : ℕ) : EReal := (cell A r n - cell B r n) * (cell A r n - cell B r n)

/-- Row `r`'s total: the squared differences added over the row's 65536 columns. -/
def rowSq (A B : Mat) (r : ℕ) : EReal := ∑ n ∈ Finset.range 65536, sqd A B r n

/-- What both programs leave for row `r`: the hinge of the row's mean squared difference, the mean taken as the
    total times 2⁻¹⁶. -/
def rowHinge (A B : Mat) (r : ℕ) : EReal := Cert.Scale.hinge (rowSq A B r * Ideal.ofBits .f32 0x37800000#32)

/-- The reference's one pass over the columns of row `r` is the row's total. -/
theorem sum_columns (A B : Mat) (r : Fin 1024) :
    ∑ k : Fin 65536, (A (ix2 r k) - B (ix2 r k)) * (A (ix2 r k) - B (ix2 r k)) = rowSq A B r.val := by
  unfold rowSq
  rw [← Fin.sum_univ_eq_sum_range (fun n => sqd A B r.val n) 65536]
  refine Finset.sum_congr rfl fun k _ => ?_
  unfold sqd
  rw [cell_eq A r.val k.val r.isLt k.isLt, cell_eq B r.val k.val r.isLt k.isLt]

/-- The kernel's order — the 128 lanes, each the sum over the 32 steps of the sum over the 16 chunks — gives the
    row's total too. -/
theorem sum_lanes (A B : Mat) (r : ℕ) :
    ∑ q : Fin 128, ∑ l ∈ Finset.range 32, ∑ k ∈ Finset.range 16, sqd A B r (2048 * l + (128 * k + q.val))
      = rowSq A B r := by
  rw [Fin.sum_univ_eq_sum_range
    (fun q => ∑ l ∈ Finset.range 32, ∑ k ∈ Finset.range 16, sqd A B r (2048 * l + (128 * k + q))) 128]
  exact Cert.SumOrder.sum_lanes_steps_chunks (sqd A B r)

end Cert.RowSq

end
-- ==== Proof.Mean.lean ====
/-
  What both programs return: the mean, over the 1024 rows, of the rows' hinged mean squared differences — the row
  values added to the zero a host sum starts from, divided by the word `0x44800000` (1024, the same word in both
  programs, so never evaluated). Also: a sum over the index set of a one-axis array is the sum over its one
  coordinate, and a sum over the index set of an `[a, 1]` column is the sum over its rows.
-/
import proofs.«159453_j71966472012553_2_alg».proof.Proof.RowSq

noncomputable section

namespace Cert.RowSq

open Idealize.ShloMosaic Idealize.ShloMosaic.ValueIdx

/-- A sum over the indices of a one-axis array is the sum over the coordinate. -/
theorem sum_idx1 {M : Type*} [AddCommMonoid M] {n : ℕ} (f : (⟨1, ![n]⟩ : Shape).Idx → M) :
    ∑ i, f i = ∑ a : Fin n, f (ix1 a) :=
  (Equiv.sum_comp (⟨fun a => ix1 a, fun i => i 0, fun _ => rfl, fun i => (eq_ix1 i).symm⟩ :
    Fin n ≃ (⟨1, ![n]⟩ : Shape).Idx) f).symm

/-- A sum over the indices of an `[a, 1]` column is the sum over its rows. -/
theorem sum_column {M : Type*} [AddCommMonoid M] {n : ℕ} (f : (⟨2, ![n, 1]⟩ : Shape).Idx → M) :
    ∑ i, f i = ∑ a : Fin n, f (ix2 a (0 : Fin 1)) := by
  rw [sum_idx2]
  exact Finset.sum_congr rfl fun a _ => Fin.sum_univ_one _

/-- The mean of the row values, as both programs take it. -/
def meanHinge (A B : Mat) : EReal :=
  Ideal.div (Ideal.ofBits .f32 0x00000000#32 + ∑ r : Fin 1024, rowHinge A B r.val) (Ideal.ofBits .f32 0x44800000#32)

end Cert.RowSq

end
-- ==== Proof.RefMean.lean ====
/-
  The reference, entry by entry. Its row `r` is the hinge of the row's total divided by 2¹⁶ — the same number as
  the hinge of the total times 2⁻¹⁶ — and its result is the mean of those over the rows.
-/
import proofs.«159453_j71966472012553_2_alg».proof.Proof.Gen.ReferenceIdeal.Read
import proofs.«159453_j71966472012553_2_alg».proof.Proof.Mean
import Idealize.ShloMosaic.Lib.ValueIdx

noncomputable section

namespace Cert.ReferenceIdeal.RefValue

open Idealize.ShloMosaic Idealize.ShloMosaic.ValueIdx
open Cert.ReferenceIdeal Cert.ReferenceIdeal.Gen Cert.ReferenceIdeal.Read Cert.RowSq

/-- The reference's row `r`: the row value of the two reshaped arguments. -/
theorem row_apply (x0 x1 : (⟨S1024x256x16x16, .f32⟩ : BufTy).Contents (Elt Ideal)) (r : Fin 1024) :
    val_main_v11 (F := Ideal) x0 x1 (ix1 r)
      = rowHinge (val_main_v0 (F := Ideal) x0) (val_main_v1 (F := Ideal) x1) r.val := by
  have hidx : ∀ k : Fin 65536, idx_main_v4 (ix1 r) k = ix2 r k := fun k =>
    funext fun a => Fin.ext (by match a with | ⟨0, _⟩ => rfl | ⟨1, _⟩ => rfl)
  have e7 : val_main_v7 (F := Ideal) (ix1 r) = Ideal.ofBits .f32 0x3C23D70A#32 := val_main_v7_apply _
  have e9 : val_main_v9 (F := Ideal) (ix1 r) = Ideal.ofBits .f32 0x3C23D70A#32 := val_main_v9_apply _
  have ec : val_main_call0_v1 (F := Ideal) (ix1 r) = Ideal.ofBits .f32 0x00000000#32 := val_main_call0_v1_apply _
  have e5 : val_main_v5 (F := Ideal) (ix1 r) = Ideal.ofBits .f32 0x47800000#32 := val_main_v5_apply _
  have e4 : val_main_v4 (F := Ideal) x0 x1 (ix1 r)
      = Ideal.ofBits .f32 0x00000000#32 + rowSq (val_main_v0 (F := Ideal) x0) (val_main_v1 (F := Ideal) x1) r.val := by
    rw [val_main_v4_apply]
    refine congrArg (Ideal.ofBits .f32 0x00000000#32 + ·) ?_
    refine (Finset.sum_congr rfl fun k _ => ?_).trans (sum_columns _ _ r)
    rw [hidx k]
    rfl
  have e6 : val_main_v6 (F := Ideal) x0 x1 (ix1 r)
      = rowSq (val_main_v0 (F := Ideal) x0) (val_main_v1 (F := Ideal) x1) r.val * Ideal.ofBits .f32 0x37800000#32 := by
    rw [val_main_v6_apply, e4, e5]
    exact (Cert.Scale.mul_invRowLen_eq_div _).symm
  rw [val_main_v11_apply, val_main_v8_apply, val_main_v10_apply, e6, e7, e9, ec]
  rfl

/-- The reference's result: the mean of the row values of the two reshaped arguments. -/
theorem result_eq (x0 x1 : (⟨S1024x256x16x16, .f32⟩ : BufTy).Contents (Elt Ideal)) :
    val_main_v13 (F := Ideal) x0 x1
      = fun _ => meanHinge (val_main_v0 (F := Ideal) x0) (val_main_v1 (F := Ideal) x1) := by
  funext i
  rw [val_main_v13_apply, val_main_v12_apply, sum_idx1]
  unfold meanHinge
  rw [Finset.sum_congr rfl fun r _ => row_apply x0 x1 r]
  rfl

end Cert.ReferenceIdeal.RefValue

end
-- ==== Proof.Blocks.lean ====
/-
  Where a grid step's blocks lie in the arrays.

  The grid has 64 steps; step `t` works on row block `t / 32` (rows `512·(t/32) … 512·(t/32) + 511`) and column
  block `t % 32` (columns `2048·(t%32) … 2048·(t%32) + 2047`) of the two inputs, and its output block is rows
  `512·(t/32) …` of the 1024 × 1 result. The inputs the steps see are the two arguments reshaped to 1024 × 65536.
-/
import proofs.«159453_j71966472012553_2_alg».proof.Proof.Gen.KernelIdeal.Frame
import proofs.«159453_j71966472012553_2_alg».proof.Proof.RowSq
import Idealize.ShloMosaic.Lib.Pipeline.Value
import Idealize.ShloMosaic.Lib.StableHlo.Run
import Idealize.ShloMosaic.Lib.Tactic

noncomputable section

namespace Cert.KernelIdeal.Blocks

open Idealize.ShloMosaic Idealize.ShloMosaic.TcCoe Idealize.SL.Sem Idealize.ShloMosaic.ValueIdx
open Cert.KernelIdeal Cert.KernelIdeal.Gen Cert.RowSq

variable (m : (ℓ : Loc nD τ sig) → Buf (Elt Ideal) ℓ)

/-- The block indices of the three windows at step `t`, decided over the 64 steps. -/
theorem idx_facts : ∀ t : Fin cfg0.N,
    win0_0.index t (0 : Fin 2) = t.val / 32 ∧ win0_0.index t (1 : Fin 2) = t.val % 32
    ∧ win0_1.index t (0 : Fin 2) = t.val / 32 ∧ win0_1.index t (1 : Fin 2) = t.val % 32
    ∧ win0_2.index t (0 : Fin 2) = t.val / 32 ∧ win0_2.index t (1 : Fin 2) = 0 :=
  (by decide +kernel : ∀ t : Fin grid0.N, _)

/-- The first input as the steps see it: a 1024 × 65536 array of extended reals. -/
abbrev arrA (c : Dev nD) : Mat := V m c main_v0
/-- The second input as the steps see it. -/
abbrev arrB (c : Dev nD) : Mat := V m c main_v1

/-- The first input the steps see is the first argument reshaped. -/
theorem arrA_eq (c : Dev nD) :
    arrA m c = shapeCast S1024x65536 (m ((c : Thread nD τ).loc main_arg0)) Gen.shapeCasts_S1024x256x16x16_S1024x65536 := by
  show StableHlo.after hostOps0 (fun b => m (c, b)) (Proc.devRef .tc main_v0) = _
  after_results
  rfl

/-- The second input the steps see is the second argument reshaped. -/
theorem arrB_eq (c : Dev nD) :
    arrB m c = shapeCast S1024x65536 (m ((c : Thread nD τ).loc main_arg1)) Gen.shapeCasts_S1024x256x16x16_S1024x65536 := by
  show StableHlo.after hostOps0 (fun b => m (c, b)) (Proc.devRef .tc main_v1) = _
  after_results
  rfl

/-- Row `p`, column `n` of the first input's block at step `t` is the input at row `512·(t/32) + p`, column
    `2048·(t%32) + n`. -/
theorem iblk0_cell (c : Dev nD) (t : Fin cfg0.N) (p : Fin 512) (n : ℕ) (hn : n < 2048) :
    (iblk m c 0 t : Vec Ideal S512x2048 .f32) (ix2 p ⟨n, hn⟩)
      = cell (arrA m c) (512 * (t.val / 32) + p.val) (2048 * (t.val % 32) + n) := by
  have hN : t.val < 64 := lt_of_lt_of_eq t.isLt N_0
  have hp := p.isLt
  obtain ⟨e0, e1, -⟩ := idx_facts t
  rw [cell_eq _ _ _ (by omega) (by omega)]
  unfold iblk
  rw [View.read_apply]
  refine congrArg (V m c main_v0) ?_
  funext a
  apply Fin.ext
  match a with
  | ⟨0, _⟩ => show win0_0.index t (0 : Fin 2) * 512 + 1 * p.val = 512 * (t.val / 32) + p.val; rw [e0]; omega
  | ⟨1, _⟩ => show win0_0.index t (1 : Fin 2) * 2048 + 1 * n = 2048 * (t.val % 32) + n; rw [e1]; omega

/-- The same for the second input. -/
theorem iblk1_cell (c : Dev nD) (t : Fin cfg0.N) (p : Fin 512) (n : ℕ) (hn : n < 2048) :
    (iblk m c 1 t : Vec Ideal S512x2048 .f32) (ix2 p ⟨n, hn⟩)
      = cell (arrB m c) (512 * (t.val / 32) + p.val) (2048 * (t.val % 32) + n) := by
  have hN : t.val < 64 := lt_of_lt_of_eq t.isLt N_0
  have hp := p.isLt
  obtain ⟨-, -, e0, e1, -⟩ := idx_facts t
  rw [cell_eq _ _ _ (by omega) (by omega)]
  unfold iblk
  rw [View.read_apply]
  refine congrArg (V m c main_v1) ?_
  funext a
  apply Fin.ext
  match a with
  | ⟨0, _⟩ => show win0_1.index t (0 : Fin 2) * 512 + 1 * p.val = 512 * (t.val / 32) + p.val; rw [e0]; omega
  | ⟨1, _⟩ => show win0_1.index t (1 : Fin 2) * 2048 + 1 * n = 2048 * (t.val % 32) + n; rw [e1]; omega

end Cert.KernelIdeal.Blocks

end
-- ==== Proof.Sweep.lean ====
/-
  What one grid step does to the lane totals.

  A step sees a 512 × 2048 block of each input. It walks the block in 16 chunks of 128 columns; for chunk `k` it
  takes the 512 × 128 pieces `a`, `b` of the two blocks at columns `128·k … 128·k + 127` and replaces the 512 × 128
  array of lane totals `acc` by `acc + (a − b)·(a − b)`, elementwise. Every such replacement rewrites the whole
  array, so what the array holds after the step is the 16-fold iterate of that one move, started from what the
  array held before the step — from the zero array at the first step of a row block, which resets it first.
  At the last step of a row block the lane totals are then folded into the step's output (`k0_pay3`).
  Everything here holds for any reading of the floats.
-/
import proofs.«159453_j71966472012553_2_alg».proof.Proof.Gen.KernelIdeal.Frame
import Idealize.ShloMosaic.Lib.Pipeline.Value
import Idealize.ShloMosaic.Lib.Tactic

set_option maxRecDepth 16384

noncomputable section

namespace Cert.KernelIdeal.Sweep

open Idealize.ShloMosaic Idealize.ShloMosaic.TcCoe Idealize.SL.Sem Idealize.ShloMosaic.Tactic
open Cert.KernelIdeal Cert.KernelIdeal.Gen

variable {F : FTy → Type} [FloatOps F]

/-- The zero offsets of a rank-two buffer. -/
theorem zero2 : (![0, 0] : Fin 2 → Nat) = fun _ => 0 :=
  funext fun a => by match a with | ⟨0, _⟩ => rfl | ⟨1, _⟩ => rfl

/-- One chunk's move: the lane totals plus the square of the difference of the two pieces. -/
def sqAcc (a b acc : FVec F S512x128 .f32) : FVec F S512x128 .f32 := addf acc (mulf (subf a b) (subf a b))

/-- Chunk `k` of a block lies inside the block. -/
theorem lane_inb (k : ℕ) (hk : k < 16) :
    ∀ a, (![0, 128 * k] : Fin 2 → ℕ) a + S512x128.size a ≤ S512x2048.size a := fun a => by
  match a with
  | ⟨0, _⟩ => show 0 + 512 ≤ 512; omega
  | ⟨1, _⟩ => show 128 * k + 128 ≤ 2048; omega

/-- Chunk `k` of a block: its columns `128·k … 128·k + 127`, all 512 rows. -/
def lane (x : Vec F S512x2048 .f32) (k : ℕ) (hk : k < 16) : Vec F S512x128 .f32 :=
  View.ld x (Rect.unit (s := S512x2048) ![0, 128 * k] S512x128.size (lane_inb k hk))

/-- The lane totals after the first `n` chunks of a step, started from `acc`. -/
def sweep (x0 x1 : Vec F S512x2048 .f32) (acc : Vec F S512x128 .f32) : (n : ℕ) → n ≤ 16 → Vec F S512x128 .f32
  | 0, _ => acc
  | n + 1, h => sqAcc (lane x0 n (by omega)) (lane x1 n (by omega)) (sweep x0 x1 acc n (by omega))

/-- The array of zeros a row block's first step starts from. -/
abbrev zeroAcc : Vec F S512x128 .f32 := broadcast S512x128 (Scalar.ofBits .f32 0x00000000#32)

/-- A step that is neither the first nor the last of its row block leaves the 16-fold iterate over what it found. -/
theorem scratch_B (c : Dev nD) (i : grid0.Coords) (arg2 : Memref sig .tc .vmem S512x2048 .f32) (harg2 : arg2.IsWhole) (arg3 : Memref sig .tc .vmem S512x2048 .f32) (harg3 : arg3.IsWhole) (arg4 : Memref sig .tc .vmem S512x1 .f32) (harg4 : arg4.IsWhole) (arg5 : Memref sig .tc .vmem S512x128 .f32) (harg5 : arg5.IsWhole) (hc0 : ¬cond0_0 i) (hc1 : ¬cond0_1 i)
    (x0 : Vec F S512x2048 .f32) (x1 : Vec F S512x2048 .f32) (xs0 : Vec F S512x128 .f32) :
    sout0_B_0 c i arg2 harg2 arg3 harg3 arg4 harg4 arg5 harg5 hc0 hc1 x0 x1 xs0 = sweep x0 x1 xs0 16 (le_refl _) := by
  unfold sout0_B_0
  rw [View.read_writes_eq_canon _ _ _ (scover0_B_0 c i arg2 harg2 arg3 harg3 arg4 harg4 arg5 harg5 hc0 hc1 x0 x1 xs0)]
  unfold kernelRun0_B
  dsimp only
  sl_unfold_words
  rw [View.canon_cons_unit_zero (S := S512x128) zero2]
  simp only [View.readCov_cons_toLoadRect, View.readAt_eq_ld, harg2.read_unread, harg3.read_unread, harg5.read_unread,
    View.ld_unit_zero (S := S512x128) zero2]
  unfold k0_pay1 k0_pay2 k0_pay5 k0_pay6 k0_pay7 k0_pay8 k0_pay9 k0_pay10 k0_pay11 k0_pay12 k0_pay13 k0_pay14 k0_pay15 k0_pay16 k0_pay17 k0_pay18 k0_pay19 k0_pay20 k0_pay21
  simp only [shapeCast_self]
  rfl

/-- The last step of a row block leaves the same in the lane totals … -/
theorem scratch_C (c : Dev nD) (i : grid0.Coords) (arg2 : Memref sig .tc .vmem S512x2048 .f32) (harg2 : arg2.IsWhole) (arg3 : Memref sig .tc .vmem S512x2048 .f32) (harg3 : arg3.IsWhole) (arg4 : Memref sig .tc .vmem S512x1 .f32) (harg4 : arg4.IsWhole) (arg5 : Memref sig .tc .vmem S512x128 .f32) (harg5 : arg5.IsWhole) (hc0 : ¬cond0_0 i) (hc1 : cond0_1 i)
    (x0 : Vec F S512x2048 .f32) (x1 : Vec F S512x2048 .f32) (xs0 : Vec F S512x128 .f32) :
    sout0_C_0 c i arg2 harg2 arg3 harg3 arg4 harg4 arg5 harg5 hc0 hc1 x0 x1 xs0 = sweep x0 x1 xs0 16 (le_refl _) := by
  unfold sout0_C_0
  rw [View.read_writes_eq_canon _ _ _ (scover0_C_0 c i arg2 harg2 arg3 harg3 arg4 harg4 arg5 harg5 hc0 hc1 x0 x1 xs0)]
  unfold kernelRun0_C
  dsimp only
  sl_unfold_words
  rw [View.canon_cons_unit_zero (S := S512x128) zero2]
  simp only [View.readCov_cons_toLoadRect, View.readAt_eq_ld, harg2.read_unread, harg3.read_unread, harg5.read_unread,
    View.ld_unit_zero (S := S512x128) zero2]
  unfold k0_pay1 k0_pay2 k0_pay5 k0_pay6 k0_pay7 k0_pay8 k0_pay9 k0_pay10 k0_pay11 k0_pay12 k0_pay13 k0_pay14 k0_pay15 k0_pay16 k0_pay17 k0_pay18 k0_pay19 k0_pay20 k0_pay21
  simp only [shapeCast_self]
  rfl

/-- … and writes, as its output block, the fold of those lane totals. -/
theorem out_C (c : Dev nD) (i : grid0.Coords) (arg2 : Memref sig .tc .vmem S512x2048 .f32) (harg2 : arg2.IsWhole) (arg3 : Memref sig .tc .vmem S512x2048 .f32) (harg3 : arg3.IsWhole) (arg4 : Memref sig .tc .vmem S512x1 .f32) (harg4 : arg4.IsWhole) (arg5 : Memref sig .tc .vmem S512x128 .f32) (harg5 : arg5.IsWhole) (hc0 : ¬cond0_0 i) (hc1 : cond0_1 i)
    (x0 : Vec F S512x2048 .f32) (x1 : Vec F S512x2048 .f32) (xs0 : Vec F S512x128 .f32) :
    out0_C_2 c i arg2 harg2 arg3 harg3 arg4 harg4 arg5 harg5 hc0 hc1 x0 x1 xs0 = k0_pay3 (sweep x0 x1 xs0 16 (le_refl _)) := by
  unfold out0_C_2
  rw [View.read_writes_eq_canon _ _ _ (cover0_C_2 c i arg2 harg2 arg3 harg3 arg4 harg4 arg5 harg5 hc0 hc1 x0 x1 xs0)]
  unfold kernelRun0_C
  dsimp only
  sl_unfold_words
  rw [View.canon_cons_unit_zero (S := S512x1) zero2]
  simp only [View.readCov_cons_toLoadRect, View.readAt_eq_ld, harg2.read_unread, harg3.read_unread, harg5.read_unread,
    View.ld_unit_zero (S := S512x128) zero2]
  refine congrArg k0_pay3 ?_
  unfold k0_pay1 k0_pay2 k0_pay5 k0_pay6 k0_pay7 k0_pay8 k0_pay9 k0_pay10 k0_pay11 k0_pay12 k0_pay13 k0_pay14 k0_pay15 k0_pay16 k0_pay17 k0_pay18 k0_pay19 k0_pay20 k0_pay21
  simp only [shapeCast_self]
  rfl

/-- The first step of a row block resets the lane totals, then does the same: the iterate over the zero array. -/
theorem scratch_A (c : Dev nD) (i : grid0.Coords) (arg2 : Memref sig .tc .vmem S512x2048 .f32) (harg2 : arg2.IsWhole) (arg3 : Memref sig .tc .vmem S512x2048 .f32) (harg3 : arg3.IsWhole) (arg4 : Memref sig .tc .vmem S512x1 .f32) (harg4 : arg4.IsWhole) (arg5 : Memref sig .tc .vmem S512x128 .f32) (harg5 : arg5.IsWhole) (hc0 : cond0_0 i) (hc1 : ¬cond0_1 i)
    (x0 : Vec F S512x2048 .f32) (x1 : Vec F S512x2048 .f32) :
    sout0_A_0 c i arg2 harg2 arg3 harg3 arg4 harg4 arg5 harg5 hc0 hc1 x0 x1 = sweep x0 x1 zeroAcc 16 (le_refl _) := by
  unfold sout0_A_0
  rw [View.read_writes_eq_canon _ _ _ (scover0_A_0 c i arg2 harg2 arg3 harg3 arg4 harg4 arg5 harg5 hc0 hc1 x0 x1)]
  unfold kernelRun0_A
  dsimp only
  sl_unfold_words
  rw [View.canon_cons_unit_zero (S := S512x128) zero2]
  simp only [View.readCov_cons_toLoadRect, View.readAt_eq_ld, harg2.read_unread, harg3.read_unread,
    View.ld_unit_zero (S := S512x128) zero2]
  unfold k0_pay1 k0_pay2 k0_pay4 k0_pay5 k0_pay6 k0_pay7 k0_pay8 k0_pay9 k0_pay10 k0_pay11 k0_pay12 k0_pay13 k0_pay14 k0_pay15 k0_pay16 k0_pay17 k0_pay18 k0_pay19 k0_pay20 k0_pay21
  simp only [shapeCast_self]
  rfl

end Cert.KernelIdeal.Sweep

end
-- ==== Proof.LibLane.lean ====
/- A lane sum read at a row: the float add-reduction of an [a, b] vector over its second axis, from the zero
   accumulator, is at the extended reals the plain sum over the lane of the row's entries. -/
import Idealize.ShloMosaic.PureOps.Ideal.Laws
import Idealize.ShloMosaic.Lib.ValueIdx
import Idealize.ShloMosaic.Lib.ValueLayout
import Idealize.ShloMosaic.Lib.Pipeline.Value

noncomputable section
namespace Cert.LibLane
open Idealize.ShloMosaic Idealize.ShloMosaic.ValueIdx

/-- A lane sum of an [a, b] vector (a float `multi_reduction <add>` over axis 1 from the zero accumulator) read at
    row `r`, at the extended reals: the sum over the lane `j` of the entries `(r, j)`. -/
theorem laneSum_apply {a b : ℕ} (src : FVec Ideal ⟨2, ![a, b]⟩ .f32) (h : Shape.Reduces ⟨2, ![a, b]⟩ [1] ⟨1, ![a]⟩)
    (hφ : FKind.Formats .f32) (hacc : (0x00000000#32 : BitVec 32) = 0x00000000#32) (r : Fin a) :
    multiReduction .add [1] ⟨1, ![a]⟩ src 0x00000000#32 h hφ hacc (ix1 r) = ∑ j : Fin b, src (ix2 r j) := by
  refine (Ideal.multiReduction_add_single src 0x00000000#32 h hφ hacc (ix1 r)).trans ?_
  refine Finset.sum_congr rfl fun j _ => congrArg src ?_
  funext d
  match d with
  | ⟨0, _⟩ => rfl
  | ⟨1, _⟩ => rfl

end Cert.LibLane
end
-- ==== Proof.LibIndexRead.lean ====
/-
  Layout operations read at an index written by coordinates, for the shapes a row-wise kernel meets:
  a vector of row values kept as a column ([a] cast to [a, 1]), a column spread over the lanes
  ([a, 1] broadcast to [a, b]), a unit-stride rectangular load of a matrix read at (k, j), and the
  host's spellings of the same moves (broadcast_in_dim of a scalar, of a vector along rows or columns,
  a rectangular slice of a matrix). Each statement reads the operation at `ix2 p q` / `ix1 p` and names the
  operand's index by coordinates, so that it applies to a printed operation by unification.
-/
import Idealize.ShloMosaic.Lib.Pipeline.Value
import Idealize.ShloMosaic.Lib.Pipeline.FrameBody
import Idealize.ShloMosaic.Lib.ValueIdx
import Idealize.ShloMosaic.Lib.ValueLayout

namespace Idealize.ShloMosaic.RowRead

open Idealize.ShloMosaic Idealize.ShloMosaic.ValueIdx

variable {α : Type}

/-- An `[a]` array cast to `[a, 1]` reads, at `(p, u)`, the operand at `p`, whatever the unit coordinate. -/
theorem shapeCast_a_a1_apply {a : ℕ} (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- An `[a, 1]` column broadcast to `[a, b]` reads, at `(p, c)`, the column's entry of row `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ =>
    show (0 : ℕ) = if (1 : ℕ) = 1 then 0 else c.val
    rw [if_pos rfl]

/-- A unit-stride rectangle of a matrix, loaded, reads at `(k, j)` the matrix at the rectangle's corner plus `(k, j)`. -/
theorem ld_unit2_apply {Val : EltTy → Type} {e : EltTy} {A B a b : ℕ} (X : (⟨2, ![A, B]⟩ : Shape).Idx → Val e) (o0 o1 : ℕ)
    (inb : ∀ d, (![o0, o1] : Fin 2 → ℕ) d + (![a, b] : Fin 2 → ℕ) d ≤ (⟨2, ![A, B]⟩ : Shape).size d)
    (k : Fin a) (j : Fin b) :
    View.ld X (Rect.unit (s := ⟨2, ![A, B]⟩) ![o0, o1] ![a, b] inb) (ix2 k j)
      = X (ix2 ⟨o0 + k.val, Nat.lt_of_lt_of_le (Nat.add_lt_add_left k.isLt o0) (inb 0)⟩
            ⟨o1 + j.val, Nat.lt_of_lt_of_le (Nat.add_lt_add_left j.isLt o1) (inb 1)⟩) := by
  show X ((Rect.unit (s := ⟨2, ![A, B]⟩) ![o0, o1] ![a, b] inb).idx (ix2 k j)) = _
  refine congrArg X (funext fun d => Fin.ext ?_)
  match d with
  | ⟨0, _⟩ => show o0 + 1 * k.val = o0 + k.val; rw [Nat.one_mul]
  | ⟨1, _⟩ => show o1 + 1 * j.val = o1 + j.val; rw [Nat.one_mul]

/-! ## The host's spellings

The axis map of a `broadcast_in_dim` is a variable of each statement, with the hypothesis `dims = ![…]`; at an operation whose
axis map is that literal the hypothesis holds by reflexivity. -/

/-- A scalar spread over any shape reads the scalar. -/
theorem broadcastInDim_scalar_apply {t : Shape} (dims : Fin 0 → Fin t.rank) (h : (⟨0, ![]⟩ : Shape).BroadcastsInDim t dims)
    (x : (⟨0, ![]⟩ : Shape).Idx → α) (j : t.Idx) : broadcastInDim t dims h x j = x ix0 :=
  broadcastInDim_apply dims h x j ix0 fun d => d.elim0

/-- An `[a]` vector placed along the rows of an `[a, 1]` column reads, at `(p, u)`, the vector at `p`. -/
theorem broadcastInDim_a_a1_apply {a : ℕ} (dims : Fin (⟨1, ![a]⟩ : Shape).rank → Fin (⟨2, ![a, 1]⟩ : Shape).rank)
    (h : (⟨1, ![a]⟩ : Shape).BroadcastsInDim ⟨2, ![a, 1]⟩ dims) (hd : dims = ![0])
    (x : (⟨1, ![a]⟩ : Shape).Idx → α) (p : Fin a) (u : Fin 1) :
    broadcastInDim ⟨2, ![a, 1]⟩ dims h x (ix2 p u) = x (ix1 p) := by
  subst hd
  refine broadcastInDim_apply _ h x (ix2 p u) (ix1 p) fun d => ?_
  match d with
  | ⟨0, _⟩ =>
    show p.val = if a = 1 then 0 else p.val
    split
    · have := p.isLt; omega
    · rfl

/-- An `[a, 1]` column spread to `[a, b]` reads, at `(p, c)`, the column's entry of row `p`. -/
theorem broadcastInDim_a1_ab_apply {a b : ℕ} (dims : Fin (⟨2, ![a, 1]⟩ : Shape).rank → Fin (⟨2, ![a, b]⟩ : Shape).rank)
    (h : (⟨2, ![a, 1]⟩ : Shape).BroadcastsInDim ⟨2, ![a, b]⟩ dims) (hd : dims = ![0, 1])
    (x : (⟨2, ![a, 1]⟩ : Shape).Idx → α) (p : Fin a) (c : Fin b) :
    broadcastInDim ⟨2, ![a, b]⟩ dims h x (ix2 p c) = x (ix2 p (0 : Fin 1)) := by
  subst hd
  refine broadcastInDim_apply _ h x (ix2 p c) (ix2 p (0 : Fin 1)) fun d => ?_
  match d with
  | ⟨0, _⟩ =>
    show p.val = if a = 1 then 0 else p.val
    split
    · have := p.isLt; omega
    · rfl
  | ⟨1, _⟩ =>
    show (0 : ℕ) = if (1 : ℕ) = 1 then 0 else c.val
    rw [if_pos rfl]

/-- A `[b]` vector laid as the one row of `[1, b]` reads, at `(u, c)`, the vector at `c`. -/
theorem broadcastInDim_b_1b_apply {b : ℕ} (dims : Fin (⟨1, ![b]⟩ : Shape).rank → Fin (⟨2, ![1, b]⟩ : Shape).rank)
    (h : (⟨1, ![b]⟩ : Shape).BroadcastsInDim ⟨2, ![1, b]⟩ dims) (hd : dims = ![1])
    (x : (⟨1, ![b]⟩ : Shape).Idx → α) (u : Fin 1) (c : Fin b) :
    broadcastInDim ⟨2, ![1, b]⟩ dims h x (ix2 u c) = x (ix1 c) := by
  subst hd
  refine broadcastInDim_apply _ h x (ix2 u c) (ix1 c) fun d => ?_
  match d with
  | ⟨0, _⟩ =>
    show c.val = if b = 1 then 0 else c.val
    split
    · have := c.isLt; omega
    · rfl

/-- A `[1, b]` row spread over `[a, b]` reads, at `(p, c)`, the row at `c`. -/
theorem broadcastInDim_1b_ab_apply {a b : ℕ} (dims : Fin (⟨2, ![1, b]⟩ : Shape).rank → Fin (⟨2, ![a, b]⟩ : Shape).rank)
    (h : (⟨2, ![1, b]⟩ : Shape).BroadcastsInDim ⟨2, ![a, b]⟩ dims) (hd : dims = ![0, 1])
    (x : (⟨2, ![1, b]⟩ : Shape).Idx → α) (p : Fin a) (c : Fin b) :
    broadcastInDim ⟨2, ![a, b]⟩ dims h x (ix2 p c) = x (ix2 (0 : Fin 1) c) := by
  subst hd
  refine broadcastInDim_apply _ h x (ix2 p c) (ix2 (0 : Fin 1) c) fun d => ?_
  match d with
  | ⟨0, _⟩ =>
    show (0 : ℕ) = if (1 : ℕ) = 1 then 0 else p.val
    rw [if_pos rfl]
  | ⟨1, _⟩ =>
    show c.val = if b = 1 then 0 else c.val
    split
    · have := c.isLt; omega
    · rfl

/-- A unit-stride rectangular slice of a matrix reads, at `(k, j)`, the matrix at the offsets plus `(k, j)`. -/
theorem slice2_apply {A B a b : ℕ} (o0 o1 : ℕ) (X : (⟨2, ![A, B]⟩ : Shape).Idx → α)
    (h : (⟨2, ![A, B]⟩ : Shape).Slices ![o0, o1] ⟨2, ![a, b]⟩) (k : Fin a) (j : Fin b)
    (h0 : o0 + k.val < A) (h1 : o1 + j.val < B) :
    extractStridedSlice ⟨2, ![a, b]⟩ ![o0, o1] X h (ix2 k j) = X (ix2 ⟨o0 + k.val, h0⟩ ⟨o1 + j.val, h1⟩) := by
  refine extractStridedSlice_apply ![o0, o1] X h (ix2 k j) _ fun d => ?_
  match d with
  | ⟨0, _⟩ => rfl
  | ⟨1, _⟩ => rfl

end Idealize.ShloMosaic.RowRead
-- ==== Proof.SweepAt.lean ====
/-
  One grid step, entry by entry, on the extended reals.

  Entry `(p, q)` of the lane totals after a step is its entry before the step plus, over the 16 chunks `k`, the
  squared difference of the two blocks at row `p`, column `128·k + q`: the chunks are added one after another,
  which on the extended reals is the same as adding their sum (addition is associative). And row `p` of the
  block a row block's last step writes is the hinge of 2⁻¹⁶ times the sum of the 128 lane totals of row `p`.
-/
import proofs.«159453_j71966472012553_2_alg».proof.Proof.Sweep
import proofs.«159453_j71966472012553_2_alg».proof.Proof.Scale
import proofs.«159453_j71966472012553_2_alg».proof.Proof.LibLane
import proofs.«159453_j71966472012553_2_alg».proof.Proof.LibIndexRead
import Idealize.ShloMosaic.Lib.ValueIdx

noncomputable section

namespace Cert.KernelIdeal.SweepAt

open Idealize.ShloMosaic Idealize.ShloMosaic.ValueIdx
open Cert.KernelIdeal Cert.KernelIdeal.Gen Cert.KernelIdeal.Sweep

/-- Chunk `k` of a block at `(p, q)` is the block at row `p`, column `128·k + q`. -/
theorem lane_apply {F : FTy → Type} [FloatOps F] (x : Vec F S512x2048 .f32) (k : ℕ) (hk : k < 16) (p : Fin 512)
    (q : Fin 128) :
    lane x k hk (ix2 p q) = x (ix2 p ⟨128 * k + q.val, by have := q.isLt; omega⟩) := by
  unfold lane
  refine (RowRead.ld_unit2_apply (Val := Elt F) (e := .f32) (A := 512) (B := 2048) (a := 512) (b := 128) x 0 (128 * k)
    (lane_inb k hk) p q).trans (congrArg x ?_)
  funext d
  match d with
  | ⟨0, _⟩ => exact Fin.ext (Nat.zero_add _)
  | ⟨1, _⟩ => rfl

/-- The lane totals after `n` chunks, at `(p, q)`: the entry they started from plus the first `n` chunks' squared
    differences at row `p`. The rows of the two blocks are given as functions `f0`, `f1` of the column. -/
theorem sweep_apply (x0 x1 : Vec Ideal S512x2048 .f32) (acc : Vec Ideal S512x128 .f32) (p : Fin 512) (q : Fin 128)
    (f0 f1 : ℕ → EReal) (h0 : ∀ (n : ℕ) (hn : n < 2048), x0 (ix2 p ⟨n, hn⟩) = f0 n)
    (h1 : ∀ (n : ℕ) (hn : n < 2048), x1 (ix2 p ⟨n, hn⟩) = f1 n) :
    ∀ (n : ℕ) (hn : n ≤ 16), sweep x0 x1 acc n hn (ix2 p q)
      = acc (ix2 p q) + ∑ k ∈ Finset.range n,
          (f0 (128 * k + q.val) - f1 (128 * k + q.val)) * (f0 (128 * k + q.val) - f1 (128 * k + q.val))
  | 0, _ => by
    rw [Finset.sum_range_zero, add_zero]
    rfl
  | n + 1, hn => by
    rw [Finset.sum_range_succ, ← add_assoc, ← sweep_apply x0 x1 acc p q f0 f1 h0 h1 n (by omega)]
    show sqAcc (lane x0 n (by omega)) (lane x1 n (by omega)) (sweep x0 x1 acc n (by omega)) (ix2 p q) = _
    unfold sqAcc
    rw [addf_apply, mulf_apply, subf_apply, lane_apply, lane_apply, h0, h1]

/-- Row `p` of the block a row block's last step writes: the hinge of 2⁻¹⁶ times the sum of row `p`'s lane totals. -/
theorem fold_apply (v : FVec Ideal S512x128 .f32) (p : Fin 512) (u : Fin 1) :
    k0_pay3 (F := Ideal) v (ix2 p u)
      = Cert.Scale.hinge ((∑ j : Fin 128, v (ix2 p j)) * Ideal.ofBits .f32 0x37800000#32) := by
  have e : shapeCast S512x1 (multiReduction (F := Ideal) .add [1] S512 v 0x00000000#32 Gen.reduces_S512x128_S512 (.inl rfl) rfl)
        Gen.shapeCasts_S512_S512x1 (ix2 p u) = ∑ j : Fin 128, v (ix2 p j) :=
    (RowRead.shapeCast_a_a1_apply _ _ p u).trans (Cert.LibLane.laneSum_apply v _ _ _ p)
  exact congrArg (fun s => Cert.Scale.hinge (s * Ideal.ofBits .f32 0x37800000#32)) e

end Cert.KernelIdeal.SweepAt

end
-- ==== Proof.Totals.lean ====
/-
  The lane totals, step by step, and what a row block's last step writes.

  Write step `t` as `t = 32·i + l`: row block `i`, column block `l`. After step `t`, lane total `(p, q)` is the sum
  over the column blocks `l' ≤ l` seen so far and over the 16 chunks `k` of the squared difference of the inputs at
  row `512·i + p`, column `2048·l' + 128·k + q` — by induction on the step: the first step of a row block starts
  from zero, every other step adds its 16 chunks to what the step before left. At `l = 31` the step writes, for
  row `p` of its output block, the hinge of 2⁻¹⁶ times the sum of the row's 128 lane totals, and those lane totals
  together are the whole row: the block's row `p` is the row value of row `512·i + p`.
-/
import proofs.«159453_j71966472012553_2_alg».proof.Proof.Blocks
import proofs.«159453_j71966472012553_2_alg».proof.Proof.SweepAt

noncomputable section

namespace Cert.KernelIdeal.Totals

open Idealize.ShloMosaic Idealize.ShloMosaic.TcCoe Idealize.SL.Sem Idealize.ShloMosaic.ValueIdx
open Cert.KernelIdeal Cert.KernelIdeal.Gen Cert.RowSq
open Cert.KernelIdeal.Sweep Cert.KernelIdeal.SweepAt Cert.KernelIdeal.Blocks

variable (m : (ℓ : Loc nD τ sig) → Buf (Elt Ideal) ℓ)

/-- One step at an entry: the entry before plus the step's 16 chunks at the entry's row and lane. -/
theorem step_at (c : Dev nD) (t : Fin cfg0.N) (acc : Vec Ideal S512x128 .f32) (p : Fin 512) (q : Fin 128) :
    sweep (iblk m c 0 t) (iblk m c 1 t) acc 16 (le_refl _) (ix2 p q)
      = acc (ix2 p q) + ∑ k ∈ Finset.range 16,
          sqd (arrA m c) (arrB m c) (512 * (t.val / 32) + p.val) (2048 * (t.val % 32) + (128 * k + q.val)) :=
  sweep_apply (iblk m c 0 t) (iblk m c 1 t) acc p q
    (fun n => cell (arrA m c) (512 * (t.val / 32) + p.val) (2048 * (t.val % 32) + n))
    (fun n => cell (arrB m c) (512 * (t.val / 32) + p.val) (2048 * (t.val % 32) + n))
    (fun n hn => iblk0_cell m c t p n hn) (fun n hn => iblk1_cell m c t p n hn) 16 (le_refl _)

/-- After the first step of a row block: the 16 chunks over the zero array. -/
theorem after_first (c : Dev nD) (t : Fin cfg0.N) (h0 : t.val % 32 = 0) (h1 : ¬t.val % 32 = 31) :
    (outsAt0 m c t.val t.isLt).2 = sweep (iblk m c 0 t) (iblk m c 1 t) zeroAcc 16 (le_refl _) :=
  (congrArg Prod.snd (outsAt0_A m c t h0 h1)).trans
    (scratch_A c (grid0.coords t) (ms0_0 t) (hs0_0 t) (ms0_1 t) (hs0_1 t) (ms0_2 t) (hs0_2 t) scM0_0 (Memref.isWhole_whole _) ((hcond0_0 t).mpr h0) (fun h => h1 ((hcond0_1 t).mp h)) (iblk m c 0 t) (iblk m c 1 t))

/-- After a step in the middle of a row block: the 16 chunks over what the step before left. -/
theorem after_middle (c : Dev nD) (t : Fin cfg0.N) (h0 : ¬t.val % 32 = 0) (h1 : ¬t.val % 32 = 31) :
    (outsAt0 m c t.val t.isLt).2 = sweep (iblk m c 0 t) (iblk m c 1 t)
      (outsAt0 m c (t.val - 1) (Nat.lt_of_le_of_lt (Nat.sub_le _ _) t.isLt)).2 16 (le_refl _) :=
  (congrArg Prod.snd (outsAt0_B m c t h0 h1)).trans
    (scratch_B c (grid0.coords t) (ms0_0 t) (hs0_0 t) (ms0_1 t) (hs0_1 t) (ms0_2 t) (hs0_2 t) scM0_0 (Memref.isWhole_whole _) (fun h => h0 ((hcond0_0 t).mp h)) (fun h => h1 ((hcond0_1 t).mp h)) (iblk m c 0 t) (iblk m c 1 t)
      (outsAt0 m c (t.val - 1) (Nat.lt_of_le_of_lt (Nat.sub_le _ _) t.isLt)).2)

/-- After the last step of a row block: the same. -/
theorem after_last (c : Dev nD) (t : Fin cfg0.N) (h0 : ¬t.val % 32 = 0) (h1 : t.val % 32 = 31) :
    (outsAt0 m c t.val t.isLt).2 = sweep (iblk m c 0 t) (iblk m c 1 t)
      (outsAt0 m c (t.val - 1) (Nat.lt_of_le_of_lt (Nat.sub_le _ _) t.isLt)).2 16 (le_refl _) :=
  (congrArg Prod.snd (outsAt0_C m c t h0 h1)).trans
    (scratch_C c (grid0.coords t) (ms0_0 t) (hs0_0 t) (ms0_1 t) (hs0_1 t) (ms0_2 t) (hs0_2 t) scM0_0 (Memref.isWhole_whole _) (fun h => h0 ((hcond0_0 t).mp h)) ((hcond0_1 t).mpr h1) (iblk m c 0 t) (iblk m c 1 t)
      (outsAt0 m c (t.val - 1) (Nat.lt_of_le_of_lt (Nat.sub_le _ _) t.isLt)).2)

/-- After any step but the first of its row block. -/
theorem after_later (c : Dev nD) (t : Fin cfg0.N) (h0 : ¬t.val % 32 = 0) :
    (outsAt0 m c t.val t.isLt).2 = sweep (iblk m c 0 t) (iblk m c 1 t)
      (outsAt0 m c (t.val - 1) (Nat.lt_of_le_of_lt (Nat.sub_le _ _) t.isLt)).2 16 (le_refl _) := by
  by_cases h1 : t.val % 32 = 31
  · exact after_last m c t h0 h1
  · exact after_middle m c t h0 h1

/-- The block the last step of a row block writes is the fold of the lane totals that step leaves. -/
theorem written_last (c : Dev nD) (t : Fin cfg0.N) (h0 : ¬t.val % 32 = 0) (h1 : t.val % 32 = 31) :
    (outsAt0 m c t.val t.isLt).1 = k0_pay3 (outsAt0 m c t.val t.isLt).2 :=
  ((congrArg Prod.fst (outsAt0_C m c t h0 h1)).trans
    (out_C c (grid0.coords t) (ms0_0 t) (hs0_0 t) (ms0_1 t) (hs0_1 t) (ms0_2 t) (hs0_2 t) scM0_0 (Memref.isWhole_whole _) (fun h => h0 ((hcond0_0 t).mp h)) ((hcond0_1 t).mpr h1) (iblk m c 0 t) (iblk m c 1 t)
      (outsAt0 m c (t.val - 1) (Nat.lt_of_le_of_lt (Nat.sub_le _ _) t.isLt)).2)).trans
    (congrArg k0_pay3 (after_last m c t h0 h1).symm)

/-- THE LANE TOTALS after step `t = 32·i + l`, entry by entry. -/
theorem totals_at (c : Dev nD) (t : ℕ) : ∀ (ht : t < cfg0.N) (i l : ℕ), t = 32 * i + l → l < 32 →
    ∀ (p : Fin 512) (q : Fin 128), (outsAt0 m c t ht).2 (ix2 p q)
      = ∑ l' ∈ Finset.range (l + 1), ∑ k ∈ Finset.range 16,
          sqd (arrA m c) (arrB m c) (512 * i + p.val) (2048 * l' + (128 * k + q.val)) := by
  induction t with
  | zero =>
    intro ht i l htl hl p q
    obtain ⟨rfl, rfl⟩ : i = 0 ∧ l = 0 := by omega
    refine (congrFun (after_first m c ⟨0, ht⟩ (Nat.zero_mod 32) (by show ¬(0 : ℕ) % 32 = 31; omega)) (ix2 p q)).trans ?_
    refine (step_at m c ⟨0, ht⟩ zeroAcc p q).trans ?_
    show (Ideal.ofBits .f32 0x00000000#32 : EReal) + ∑ k ∈ Finset.range 16,
      sqd (arrA m c) (arrB m c) (512 * (0 / 32) + p.val) (2048 * (0 % 32) + (128 * k + q.val)) = _
    rw [Nat.zero_div, Nat.zero_mod, Cert.Scale.ofBits_zero, zero_add, Finset.sum_range_one]
  | succ n ih =>
    intro ht i l htl hl p q
    have hN : n + 1 < 64 := lt_of_lt_of_eq ht N_0
    have hd : (n + 1) / 32 = i := by omega
    have hm : (n + 1) % 32 = l := by omega
    cases l with
    | zero =>
      refine (congrFun (after_first m c ⟨n + 1, ht⟩ hm (by show ¬(n + 1) % 32 = 31; omega)) (ix2 p q)).trans ?_
      refine (step_at m c ⟨n + 1, ht⟩ zeroAcc p q).trans ?_
      show (Ideal.ofBits .f32 0x00000000#32 : EReal) + ∑ k ∈ Finset.range 16,
        sqd (arrA m c) (arrB m c) (512 * ((n + 1) / 32) + p.val) (2048 * ((n + 1) % 32) + (128 * k + q.val)) = _
      rw [hd, hm, Cert.Scale.ofBits_zero, zero_add, Finset.sum_range_one]
    | succ l0 =>
      have ih' := ih (by omega) i l0 (by omega) (by omega) p q
      refine (congrFun (after_later m c ⟨n + 1, ht⟩ (by show ¬(n + 1) % 32 = 0; omega)) (ix2 p q)).trans ?_
      refine (step_at m c ⟨n + 1, ht⟩ _ p q).trans ?_
      show (outsAt0 m c n _).2 (ix2 p q) + ∑ k ∈ Finset.range 16,
        sqd (arrA m c) (arrB m c) (512 * ((n + 1) / 32) + p.val) (2048 * ((n + 1) % 32) + (128 * k + q.val)) = _
      rw [ih', hd, hm, Finset.sum_range_succ _ (l0 + 1)]

/-- WHAT A ROW BLOCK'S LAST STEP WRITES: row `p` of the block written at step `t = 32·i + 31` is the row value of
    row `512·i + p`. -/
theorem written_at (c : Dev nD) (t : Fin cfg0.N) (i : ℕ) (hti : t.val = 32 * i + 31) (p : Fin 512) (u : Fin 1) :
    (outsAt0 m c t.val t.isLt).1 (ix2 p u) = rowHinge (arrA m c) (arrB m c) (512 * i + p.val) := by
  have h0 : ¬t.val % 32 = 0 := by omega
  have h1 : t.val % 32 = 31 := by omega
  refine (congrFun (written_last m c t h0 h1) (ix2 p u)).trans ?_
  refine (fold_apply _ p u).trans ?_
  unfold rowHinge
  refine congrArg (fun s => Cert.Scale.hinge (s * Ideal.ofBits .f32 0x37800000#32)) ?_
  exact (Finset.sum_congr rfl fun q _ => totals_at m c t.val t.isLt i 31 hti (by omega) p q).trans
    (sum_lanes (arrA m c) (arrB m c) (512 * i + p.val))

end Cert.KernelIdeal.Totals

end
-- ==== Proof.Result.lean ====
/-
  What the kernel's program ends holding.

  Only the last step of each of the two row blocks writes its output block back; the two blocks tile the
  1024 × 1 result, so after the region that array holds, at row `r`, the row value of row `r` of the two reshaped
  arguments. The host then adds the 1024 entries to zero and divides by 1024: the mean of the row values.
-/
import proofs.«159453_j71966472012553_2_alg».proof.Proof.Totals
import proofs.«159453_j71966472012553_2_alg».proof.Proof.Mean
import Idealize.ShloMosaic.PureOps.Ideal.Laws

noncomputable section

namespace Cert.KernelIdeal.Result

open Idealize.ShloMosaic Idealize.ShloMosaic.TcCoe Idealize.SL.Sem Idealize.ShloMosaic.ValueIdx
open Idealize.ShloMosaic.Pipeline (Dat)
open Cert.KernelIdeal Cert.KernelIdeal.Gen Cert.RowSq
open Cert.KernelIdeal.Blocks Cert.KernelIdeal.Totals

variable (m : (ℓ : Loc nD τ sig) → Buf (Elt Ideal) ℓ) (ρ : Dev nD → PrngReg)

/-- The 1024 × 1 array of row values. -/
def rows (c : Dev nD) : S1024x1.Idx → EReal := fun y => rowHinge (arrA m c) (arrB m c) (y 0).val

/-- An entry of the block written at step `t = 32·i + 31`, at an index of the block. -/
theorem written_idx (c : Dev nD) (t : Fin cfg0.N) (i : ℕ) (hti : t.val = 32 * i + 31) (y : S512x1.Idx) :
    (outsAt0 m c t.val t.isLt).1 y = rowHinge (arrA m c) (arrB m c) (512 * i + (y 0).val) := by
  obtain ⟨p, u, rfl⟩ : ∃ (p : Fin 512) (u : Fin 1), y = ix2 p u := ⟨y 0, y 1, eq_ix2 y⟩
  exact written_at m c t i hti p u

/-- What a step that writes back writes is its block of the array of row values. -/
theorem flushed_eq (c : Dev nD) (t : Fin cfg0.N) (hf : (cfg0.win 2).flush t = true) :
    (dats m 0 c).flushed 2 t = ((cfg0.win 2).blk t).view.read (Elt Ideal) (rows m c) := by
  have hN : t.val < 64 := lt_of_lt_of_eq t.isLt N_0
  have h31 : t.val % 32 = 31 := (flush0_2 t).mp hf
  obtain ⟨-, -, -, -, e0, -⟩ := idx_facts t
  show (cfg0.win 2).cut (grid0.coords t) ((dats m 0 c).after 2 t) = _
  rw [after0_2, show (outsAt0 m c t.val t.isLt).1
      = (fun y : S512x1.Idx => rowHinge (arrA m c) (arrB m c) (512 * (t.val / 32) + (y 0).val)) from
    funext (written_idx m c t (t.val / 32) (by omega))]
  funext j
  refine Eq.trans (b := rowHinge (arrA m c) (arrB m c) (512 * (t.val / 32) + (j 0).val)) rfl ?_
  rw [View.read_apply, cast_eq]
  unfold rows
  refine congrArg (rowHinge (arrA m c) (arrB m c)) ?_
  show 512 * (t.val / 32) + (j 0).val = win0_2.index t (0 : Fin 2) * 512 + 1 * (j 0).val
  rw [e0]
  omega

/-- Every row of the result lies in the block some writing step writes: row `r` in that of step `32·(r / 512) + 31`. -/
theorem covered (i : S1024x1.Idx) :
    ∃ t : Fin cfg0.N, (cfg0.win 2).flush t = true ∧ i ∈ ((cfg0.win 2).blk t).view.set := by
  have h0 : (i 0).val < 1024 := (i 0).isLt
  have h1 : (i 1).val < 1 := (i 1).isLt
  have hN : cfg0.N = 64 := N_0
  have ht : 32 * ((i 0).val / 512) + 31 < cfg0.N := by rw [hN]; omega
  obtain ⟨-, -, -, -, e0, e1⟩ := idx_facts ⟨32 * ((i 0).val / 512) + 31, ht⟩
  refine ⟨⟨32 * ((i 0).val / 512) + 31, ht⟩, (flush0_2 _).mpr (by show (32 * ((i 0).val / 512) + 31) % 32 = 31; omega), ?_⟩
  show i ∈ ((View.whole main_v2).slice (win0_2.rect ⟨32 * ((i 0).val / 512) + 31, ht⟩)).set
  rw [View.set_slice_whole, Rect.mem_set_unit]
  intro a
  match a with
  | ⟨0, _⟩ =>
    show win0_2.index ⟨32 * ((i 0).val / 512) + 31, ht⟩ (0 : Fin 2) * 512 ≤ (i 0).val
      ∧ (i 0).val < win0_2.index ⟨32 * ((i 0).val / 512) + 31, ht⟩ (0 : Fin 2) * 512 + 512
    rw [e0]
    show (32 * ((i 0).val / 512) + 31) / 32 * 512 ≤ (i 0).val ∧ (i 0).val < (32 * ((i 0).val / 512) + 31) / 32 * 512 + 512
    omega
  | ⟨1, _⟩ =>
    show win0_2.index ⟨32 * ((i 0).val / 512) + 31, ht⟩ (1 : Fin 2) * 1 ≤ (i 1).val
      ∧ (i 1).val < win0_2.index ⟨32 * ((i 0).val / 512) + 31, ht⟩ (1 : Fin 2) * 1 + 1
    rw [e1]
    omega

/-- So after the region the result array holds the row values. -/
theorem final_rows (c : Dev nD) : (dats m 0 c).arrAt 2 cfg0.N = rows m c :=
  (dats m 0 c).arrAt_eq_of_cover 2 (rows m c) (flushed_eq m c) (covered)

end Cert.KernelIdeal.Result

end
-- ==== Proof.Outcome.lean ====
/-
  The kernel's program, run: it ends with its result at the mean of the row values of the two reshaped arguments,
  and with its arguments as it found them.

  After the region the 1024 × 1 array holds the row values; the host adds its entries to zero (a sum over every
  entry of the column, that is over its 1024 rows) and divides by the word for 1024.
-/
import proofs.«159453_j71966472012553_2_alg».proof.Proof.Result

noncomputable section

namespace Cert.KernelIdeal.Outcome

open Idealize.ShloMosaic Idealize.ShloMosaic.TcCoe Idealize.SL.Sem Idealize.ShloMosaic.ValueIdx
open Idealize.ShloMosaic.Pipeline (Dat)
open Cert.KernelIdeal Cert.KernelIdeal.Gen Cert.RowSq
open Cert.KernelIdeal.Blocks Cert.KernelIdeal.Result

variable (m : (ℓ : Loc nD τ sig) → Buf (Elt Ideal) ℓ) (ρ : Dev nD → PrngReg)

/-- The host's sum of a 1024 × 1 column from zero, divided by the word for 1024: the zero plus the sum over the
    rows, divided by that word. -/
theorem mean_of_column (R : S1024x1.Idx → EReal) :
    Host.divf (F := Ideal)
        (Host.reduceAdd (F := Ideal) R (constant (F := Ideal) S_ .f32 0x00000000#32) Gen.reducesTo_S1024x1_S_d0_1 Gen.h_S_)
        (constant (F := Ideal) S_ .f32 0x44800000#32)
      = fun _ => Ideal.div (Ideal.ofBits .f32 0x00000000#32 + ∑ a : Fin 1024, R (ix2 a (0 : Fin 1)))
          (Ideal.ofBits .f32 0x44800000#32) := by
  funext i
  show Ideal.div (Host.reduceAdd (F := Ideal) R (constant (F := Ideal) S_ .f32 0x00000000#32)
    Gen.reducesTo_S1024x1_S_d0_1 Gen.h_S_ i) (Ideal.ofBits .f32 0x44800000#32) = _
  refine congrArg (fun s => Ideal.div s (Ideal.ofBits .f32 0x44800000#32)) ?_
  simp only [Host.reduceAdd, Ideal.hostReduceAdd_def]
  rw [Ideal.hostReduceAdd_total Gen.reducesTo_S1024x1_S_d0_1 (fun b => b.elim0) R _ i, sum_column]
  rfl

/-- What the host operations after the region leave in the result: the mean of the row values. -/
theorem tail_eq (c : Dev nD) :
    Pipeline.afterTail₀ cfgs (dats m) 0 (V0 m) [hostOps1] c main_v4 = fun _ => meanHinge (arrA m c) (arrB m c) := by
  unfold Pipeline.afterTail₀
  show StableHlo.after hostOps1 _ (Proc.devRef .tc main_v4) = _
  after_results
  rw [show Pipeline.withArrays (cfgs 0).spec c (V0 m c) (fun w => (dats m 0 c).arrAt w (cfgs 0).N)
      (Proc.devRef .tc main_v2) = rows m c from
    (Pipeline.withArrays_arr spec0 launch0.win.arr_inj c _ _ 2).trans (final_rows m c)]
  exact mean_of_column (rows m c)

/-- THE RUN: every weakly fair execution ends, faults nowhere, and leaves the result at the mean of the row values
    and the two arguments unchanged. -/
theorem run : θ_run defs (onTc (τ := τ) (main (F := Ideal))) ⟨m, fun _ => 0, ρ⟩ fun r => ∀ c : Dev nD,
      r.2.mem ((c.tc : Thread nD τ).loc main_v4) = (fun _ => meanHinge (arrA m c) (arrB m c))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c =>
    ⟨((h c).2 main_v4 (Pipeline.mem_restRefs_of main_v4 (by decide) (by decide))).trans (tail_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c)⟩)
    (run_main m ρ)

end Cert.KernelIdeal.Outcome

end
-- ==== Proof.lean ====
/-
  The kernel and its reference compute one number.

  Both take two float arrays of shape 1024 × 256 × 16 × 16, read each as 1024 rows of 65536 entries, and return

      ( Σ_r  hinge( (Σ_n (a r n − b r n)²) · 2⁻¹⁶ ) ) / 1024,      hinge(d) = d − c  where d > c,  0 elsewhere,

  with `c` one float word both programs spell. The reference adds a row's squared differences in one pass and
  divides by 2¹⁶. The kernel walks each row in 32 steps of 2048 columns and each step in 16 chunks of 128 columns,
  keeps 128 lane totals per row across the steps (reset at the first step of a row block, carried in a scratch
  array between steps), adds the lane totals at the last step, multiplies by 2⁻¹⁶, applies the hinge and writes
  the row's value; the host around it adds the 1024 row values and divides. On the extended reals addition is
  commutative and associative, so the kernel's order of adding gives the row's plain sum (no finiteness is
  needed), and multiplying by 2⁻¹⁶ is dividing by 2¹⁶ on every extended real.

  The modules: `Scale` (the float words and the scaling law), `SumOrder` and `RowSq` (the row total and the two
  orders of adding it), `Mean` (the result as one term), `RefMean` (the reference is that term), `Sweep` and
  `SweepAt` (one grid step: the 16-fold update of the lane totals, and its last-step fold, entry by entry),
  `Blocks` (where a step's blocks lie), `Totals` (the lane totals after every step, by induction on the step),
  `Result` (the array of row values the region leaves), `Outcome` (the kernel's run). The three programs' runs
  (that they terminate, fault nowhere and keep their arguments) are the generated frame proofs and the generated
  run of the reference.
-/
import proofs.«159453_j71966472012553_2_alg».proof.Defs
import proofs.«159453_j71966472012553_2_alg».proof.Proof.Gen.Kernel
import proofs.«159453_j71966472012553_2_alg».proof.Proof.Gen.Kernel.Frame
import proofs.«159453_j71966472012553_2_alg».proof.Proof.Gen.KernelIdeal
import proofs.«159453_j71966472012553_2_alg».proof.Proof.Gen.KernelIdeal.Frame
import proofs.«159453_j71966472012553_2_alg».proof.Proof.Gen.ReferenceIdeal
import proofs.«159453_j71966472012553_2_alg».proof.Proof.Gen.Pre_finite_inputs
import proofs.«159453_j71966472012553_2_alg».proof.Proof.RefFrame
import proofs.«159453_j71966472012553_2_alg».proof.Proof.RefMean
import proofs.«159453_j71966472012553_2_alg».proof.Proof.Outcome

noncomputable section

namespace Cert.Proof

open Idealize.ShloMosaic Idealize.SL.Sem

/-- From arguments that agree, the kernel ends at the mean of the row values of its reshaped arguments (its run)
    and the reference at the mean of the row values of its own (its generated run, read entry by entry): the same
    term of the same arrays. -/
theorem algebraic : Cert.algebraic_KernelIdeal_ReferenceIdeal := by
  intro m ρ m' ρ' _ hagree
  refine ⟨fun c => (fun _ => Cert.RowSq.meanHinge (Cert.KernelIdeal.Blocks.arrA m c) (Cert.KernelIdeal.Blocks.arrB m c)),
    Cert.KernelIdeal.Outcome.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v13_eq, Cert.ReferenceIdeal.RefValue.result_eq, (hagree c).1, (hagree c).2]
  show _ = fun _ => Cert.RowSq.meanHinge (Cert.KernelIdeal.Blocks.arrA m c) (Cert.KernelIdeal.Blocks.arrB m c)
  rw [Cert.KernelIdeal.Blocks.arrA_eq, Cert.KernelIdeal.Blocks.arrB_eq]
  rfl

theorem claim : Cert.Claim :=
  ⟨Cert.Kernel.Gen.facts, Cert.KernelIdeal.Gen.facts, Cert.ReferenceIdeal.Gen.facts, Cert.Pre_finite_inputs.Gen.facts,
    fun m ρ _ => Cert.Kernel.Gen.frame m ρ,
    fun m ρ _ => Cert.KernelIdeal.Gen.frame m ρ,
    Cert.Proof.RefFrame.frame_ri,
    trivial,
    algebraic⟩

end Cert.Proof

end
